-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x1 : Shape := ⟨2, ![4096, 1]⟩
abbrev S4096x512 : Shape := ⟨2, ![4096, 512]⟩
abbrev S256x2560 : Shape := ⟨2, ![256, 2560]⟩
abbrev S512x1536 : Shape := ⟨2, ![512, 1536]⟩
abbrev S1x1536 : Shape := ⟨2, ![1, 1536]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x512 : S_.BroadcastsInDim S4096x512 (![] : Fin 0 → Fin S4096x512.rank)
  reducesTo_S4096x512_S_d0_1 : S4096x512.ReducesTo [0, 1] S_
  bcast_S_S256x2560 : S_.BroadcastsInDim S256x2560 (![] : Fin 0 → Fin S256x2560.rank)
  reducesTo_S256x2560_S_d0_1 : S256x2560.ReducesTo [0, 1] S_
  bcast_S_S512x1536 : S_.BroadcastsInDim S512x1536 (![] : Fin 0 → Fin S512x1536.rank)
  reducesTo_S512x1536_S_d0_1 : S512x1536.ReducesTo [0, 1] S_
  bcast_S_S1x1536 : S_.BroadcastsInDim S1x1536 (![] : Fin 0 → Fin S1x1536.rank)
  reducesTo_S1x1536_S_d0_1 : S1x1536.ReducesTo [0, 1] S_

variable [Facts]

def fn_part1 {F : FTy → Type} [FloatOps F] (main_arg4 : FVec F S256x2560 .f32) (main_arg5 : FVec F S512x1536 .f32) (main_arg6 : FVec F S1x1536 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S256x2560 .f32 := Host.absf main_arg4
  let main_cst_6 : FVec F S_ .f32 := constant S_ .f32 0x7F800000#32
  let main_v20 : FVec F S256x2560 .f32 := broadcastInDim S256x2560 ![] bcast_S_S256x2560 main_cst_6
  let main_v21 : IVec S256x2560 1 := cmpf .olt main_v19 main_v20
  let main_c_7 : IVec S_ 1 := constantI S_ 1 1#1
  let main_v22 : IVec S_ 1 := (fun x v => Host.reduce IntOp.andi x v reducesTo_S256x2560_S_d0_1 h_S_) main_v21 main_c_7
  let main_v23 : IVec S_ 1 := andi main_v18 main_v22
  let main_v24 : FVec F S512x1536 .f32 := Host.absf main_arg5
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S1x1536 .f32 := Host.absf main_arg6
  let main_cst_10 : FVec F S_ .f32 := constant S_ .f32 0x7F800000#32
  let main_v30 : FVec F S1x1536 .f32 := broadcastInDim S1x1536 ![] bcast_S_S1x1536 main_cst_10
  let main_v31 : IVec S1x1536 1 := cmpf .olt main_v29 main_v30
  let main_c_11 : IVec S_ 1 := constantI S_ 1 1#1
  let main_v32 : IVec S_ 1 := (fun x v => Host.reduce IntOp.andi x v reducesTo_S1x1536_S_d0_1 h_S_) main_v31 main_c_11
  let main_v33 : IVec S_ 1 := andi main_v28 main_v32
  main_v33

def fn {F : FTy → Type} [FloatOps F] (main_arg0 : FVec F S4096x256 .f32) (main_arg1 : FVec F S4096x1 .f32) (main_arg2 : FVec F S4096x512 .f32) (main_arg3 : FVec F S4096x512 .f32) (main_arg4 : FVec F S256x2560 .f32) (main_arg5 : FVec F S512x1536 .f32) (main_arg6 : FVec F S1x1536 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_v13 main_v16
-- ==== Kernel.lean ====
abbrev S4096x256 : Shape := ⟨2, ![4096, 256]⟩
abbrev S4096x1 : Shape := ⟨2, ![4096, 1]⟩
abbrev S4096x512 : Shape := ⟨2, ![4096, 512]⟩
abbrev S256x2560 : Shape := ⟨2, ![256, 2560]⟩
abbrev S512x1536 : Shape := ⟨2, ![512, 1536]⟩
abbrev S1x1536 : Shape := ⟨2, ![1, 1536]⟩
abbrev S512x256 : Shape := ⟨2, ![512, 256]⟩
abbrev S512x1 : Shape := ⟨2, ![512, 1]⟩
abbrev S512x512 : Shape := ⟨2, ![512, 512]⟩
abbrev S512x2560 : Shape := ⟨2, ![512, 2560]⟩
abbrev S1x512 : Shape := ⟨2, ![1, 512]⟩

abbrev nBuf : Space → Nat
  | .hbm => 11
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x1, .f32⟩
  | .hbm, ⟨2, _⟩ => ⟨S4096x512, .f32⟩
  | .hbm, ⟨3, _⟩ => ⟨S4096x512, .f32⟩
  | .hbm, ⟨4, _⟩ => ⟨S256x2560, .f32⟩
  | .hbm, ⟨5, _⟩ => ⟨S512x1536, .f32⟩
  | .hbm, ⟨6, _⟩ => ⟨S1x1536, .f32⟩
  | .hbm, ⟨7, _⟩ => ⟨S256x2560, .bf16⟩
  | .hbm, ⟨8, _⟩ => ⟨S512x1536, .bf16⟩
  | .hbm, ⟨9, _⟩ => ⟨S4096x512, .f32⟩
  | .hbm, ⟨10, _⟩ => ⟨S4096x512, .f32⟩
  | .local _ .vmem, ⟨0, _⟩ => ⟨S512x256, .f32⟩
  | .local _ .vmem, ⟨1, _⟩ => ⟨S512x256, .f32⟩
  | .local _ .vmem, ⟨2, _⟩ => ⟨S512x1, .f32⟩
  | .local _ .vmem, ⟨3, _⟩ => ⟨S512x1, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S256x2560, .bf16⟩
  | .local _ .vmem, ⟨9, _⟩ => ⟨S512x1536, .bf16⟩
  | .local _ .vmem, ⟨10, _⟩ => ⟨S1x1536, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S512x1_S512x1_0_0 : ∀ a, (![0, 0] : Fin 2 → Nat) a + S512x1.size a ≤ S512x1.size a
  h_S512x1 : 0 < S512x1.numel
  inb_S1x1536_S1x1536_0_0 : ∀ a, (![0, 0] : Fin 2 → Nat) a + S1x1536.size a ≤ S1x1536.size a
  h_S1x1536 : 0 < S1x1536.numel
  slices_S512x2560_o0_0_S512x512 : S512x2560.Slices ![0, 0] S512x512
  slices_S512x2560_o0_512_S512x512 : S512x2560.Slices ![0, 512] S512x512
  slices_S512x2560_o0_1024_S512x512 : S512x2560.Slices ![0, 1024] S512x512
  slices_S512x2560_o0_1536_S512x512 : S512x2560.Slices ![0, 1536] S512x512
  slices_S512x2560_o0_2048_S512x512 : S512x2560.Slices ![0, 2048] S512x512
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  slices_S1x1536_o0_0_S1x512 : S1x1536.Slices ![0, 0] S1x512
  broadcasts_S512x1_S512x512 : S512x1.Broadcasts S512x512
  broadcasts_S1x512_S512x512 : S1x512.Broadcasts S512x512
  slices_S1x1536_o0_512_S1x512 : S1x1536.Slices ![0, 512] S1x512
  slices_S1x1536_o0_1024_S1x512 : S1x1536.Slices ![0, 1024] S1x512
  dot_S512x256_S256x2560_S512x2560_1_0_0_1_n_n_wf : DotDims.WF S512x256 S256x2560 S512x2560 [1] [0] [0] [1] [] []
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .f32 = 32 ∨ (Rect.block (s := S4096x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .f32 = 32 ∨ (Rect.block (s := S4096x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .f32 = 32 ∨ (Rect.block (s := S4096x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2560.size a ≤ S256x2560.size a
  hwx0_4 : ∀ i : grid0.Coords, EltTy.bits .bf16 = 32 ∨ (Rect.block (s := S256x2560) S256x2560.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x1536.size a
  hwx0_6 : ∀ i : grid0.Coords, EltTy.bits .f32 = 32 ∨ (Rect.block (s := S1x1536) S1x1536.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x512.size a
  hwx0_7 : ∀ i : grid0.Coords, EltTy.bits .f32 = 32 ∨ (Rect.block (s := S4096x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x512.size a
  hwx0_8 : ∀ i : grid0.Coords, EltTy.bits .f32 = 32 ∨ (Rect.block (s := S4096x512) S512x512.size (cc0_transform_8 i) (hinb0_8 i)).WholeWords (EltTy.packing .f32)

variable [Facts₀]

def dot_S512x256_S256x2560_S512x2560_1_0_0_1_n_n : DotDims S512x256 S256x2560 S512x2560 where
  lhsContracting := [1]
  rhsContracting := [0]
  lhsNonContracting := [0]
  rhsNonContracting := [1]
  lhsBatch := []
  rhsBatch := []
  wf := dot_S512x256_S256x2560_S512x2560_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x2560.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x1 : Shape := ⟨2, ![4096, 1]⟩
abbrev S4096x512 : Shape := ⟨2, ![4096, 512]⟩
abbrev S256x2560 : Shape := ⟨2, ![256, 2560]⟩
abbrev S512x1536 : Shape := ⟨2, ![512, 1536]⟩
abbrev S1x1536 : Shape := ⟨2, ![1, 1536]⟩
abbrev S4096x2560 : Shape := ⟨2, ![4096, 2560]⟩
abbrev S4096x1536 : Shape := ⟨2, ![4096, 1536]⟩
abbrev S_ : Shape := ⟨0, ![]⟩

abbrev nBuf : Space → Nat
  | .hbm => 99
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1, .f32⟩
  | .hbm, ⟨2, _⟩ => ⟨S4096x512, .f32⟩
  | .hbm, ⟨3, _⟩ => ⟨S4096x512, .f32⟩
  | .hbm, ⟨4, _⟩ => ⟨S256x2560, .f32⟩
  | .hbm, ⟨5, _⟩ => ⟨S512x1536, .f32⟩
  | .hbm, ⟨6, _⟩ => ⟨S1x1536, .f32⟩
  | .hbm, ⟨7, _⟩ => ⟨S4096x2560, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x1536, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x1536, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S_, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .i1⟩
  | .hbm, ⟨50, _⟩ => ⟨S_, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S4096x512, .f32⟩
  | .hbm, ⟨60, _⟩ => ⟨S4096x512, .f32⟩
  | .hbm, ⟨61, _⟩ => ⟨S4096x512, .f32⟩
  | .hbm, ⟨62, _⟩ => ⟨S4096x512, .f32⟩
  | .hbm, ⟨63, _⟩ => ⟨S4096x512, .f32⟩
  | .hbm, ⟨64, _⟩ => ⟨S_, .f32⟩
  | .hbm, ⟨65, _⟩ => ⟨S4096x512, .f32⟩
  | .hbm, ⟨66, _⟩ => ⟨S4096x512, .f32⟩
  | .hbm, ⟨67, _⟩ => ⟨S_, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S_, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S4096x512, .f32⟩
  | .hbm, ⟨82, _⟩ => ⟨S4096x512, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S4096x512, .f32⟩
  | .hbm, ⟨87, _⟩ => ⟨S4096x512, .f32⟩
  | .hbm, ⟨88, _⟩ => ⟨S4096x512, .f32⟩
  | .hbm, ⟨89, _⟩ => ⟨S4096x512, .f32⟩
  | .hbm, ⟨90, _⟩ => ⟨S4096x512, .f32⟩
  | .hbm, ⟨91, _⟩ => ⟨S_, .f32⟩
  | .hbm, ⟨92, _⟩ => ⟨S4096x512, .f32⟩
  | .hbm, ⟨93, _⟩ => ⟨S4096x512, .f32⟩
  | .hbm, ⟨94, _⟩ => ⟨S_, .f32⟩
  | .hbm, ⟨95, _⟩ => ⟨S4096x512, .f32⟩
  | .hbm, ⟨96, _⟩ => ⟨S4096x512, .f32⟩
  | .hbm, ⟨97, _⟩ => ⟨S4096x512, .f32⟩
  | .hbm, ⟨98, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]

class Facts₀ : Prop where
  slices_S4096x2560_S4096x512_0_0 : S4096x2560.Slices ![0, 0] S4096x512
  slices_S4096x2560_S4096x512_0_512 : S4096x2560.Slices ![0, 512] S4096x512
  slices_S4096x2560_S4096x512_0_1024 : S4096x2560.Slices ![0, 1024] S4096x512
  slices_S4096x2560_S4096x512_0_1536 : S4096x2560.Slices ![0, 1536] S4096x512
  slices_S4096x2560_S4096x512_0_2048 : S4096x2560.Slices ![0, 2048] S4096x512
  slices_S4096x1536_S4096x512_0_0 : S4096x1536.Slices ![0, 0] S4096x512
  slices_S4096x1536_S4096x512_0_512 : S4096x1536.Slices ![0, 512] S4096x512
  slices_S4096x1536_S4096x512_0_1024 : S4096x1536.Slices ![0, 1024] S4096x512
  bcast_S_S4096x512 : S_.BroadcastsInDim S4096x512 (![] : Fin 0 → Fin S4096x512.rank)
  dot_S4096x256_S256x2560_S4096x2560_1_0_0_1_n_n_wf : DotDims.WF S4096x256 S256x2560 S4096x2560 [1] [0] [0] [1] [] []
  dot_S4096x512_S512x1536_S4096x1536_1_0_0_1_n_n_wf : DotDims.WF S4096x512 S512x1536 S4096x1536 [1] [0] [0] [1] [] []
  dot_S4096x1_S1x1536_S4096x1536_1_0_0_1_n_n_wf : DotDims.WF S4096x1 S1x1536 S4096x1536 [1] [0] [0] [1] [] []

variable [Facts₀]

def dot_S4096x256_S256x2560_S4096x2560_1_0_0_1_n_n : DotDims S4096x256 S256x2560 S4096x2560 where
  lhsContracting := [1]
  rhsContracting := [0]
  lhsNonContracting := [0]
  rhsNonContracting := [1]
  lhsBatch := []
  rhsBatch := []
  wf := dot_S4096x256_S256x2560_S4096x2560_1_0_0_1_n_n_wf
def dot_S4096x512_S512x1536_S4096x1536_1_0_0_1_n_n : DotDims S4096x512 S512x1536 S4096x1536 where
  lhsContracting := [1]
  rhsContracting := [0]
  lhsNonContracting := [0]
  rhsNonContracting := [1]
  lhsBatch := []
  rhsBatch := []
  wf := dot_S4096x512_S512x1536_S4096x1536_1_0_0_1_n_n_wf
def dot_S4096x1_S1x1536_S4096x1536_1_0_0_1_n_n : DotDims S4096x1 S1x1536 S4096x1536 where
  lhsContracting := [1]
  rhsContracting := [0]
  lhsNonContracting := [0]
  rhsNonContracting := [1]
  lhsBatch := []
  rhsBatch := []
  wf := dot_S4096x1_S1x1536_S4096x1536_1_0_0_1_n_n_wf

class Facts : Prop extends Facts₀ where

variable [Facts]
-- ==== Proof.Cell.lean ====
/-
  One step of a time-aware LSTM cell, as mathematics over the extended reals.

  For a batch row with input row `xr` (256 entries), elapsed time `tr`, previous hidden row `hr` (512 entries) and previous
  cell entry `c0e`, and weights `K` (256 × 2560, column blocks i | c | o | t1 | t2), `R` (512 × 1536, column blocks i | c | o)
  and `kt` (1 × 1536, column blocks t1 | t2 | o):

    i   = σ(xK_i + hR_i)                     c̃  = tanh(xK_c + hR_c)
    T1  = σ(xK_t1 + σ(t·kt_t1))              T2 = σ(xK_t2 + σ(t·kt_t2))
    o   = σ(xK_o + hR_o + t·kt_o)
    c   = (1 − i)·c0 + i·c̃·T2
    h   = tanh((1 − i·T1)·c0 + i·c̃·clamp(T1)) · o,   clamp(s) = (s > ε ? ε : s),  ε = binary32(−1e-5)

  where σ(z) = 1 / (1 + e^(−z)). Each output entry depends on ONE batch row only, which is what lets a kernel that walks the batch in
  blocks of rows and a program that works on the whole batch agree entry by entry: both are `rowH` / `rowC` of the row.
-/
import Idealize.ShloMosaic.PureOps.Ideal
import Idealize.ShloMosaic.Lib.ValueIdx

noncomputable section

namespace Cert.Cell

open Idealize.ShloMosaic Idealize.ShloMosaic.ValueIdx

/-- The binary32 pattern of 1.0 denotes the real number 1. -/
theorem ofBits_one : Ideal.ofBits .f32 0x3F800000#32 = 1 := by
  simp [Ideal.ofBits, Ideal.ieee, -EReal.coe_mul]; norm_num

/-- ε: −1e-5 rounded to binary32, the clamp's threshold and its replacement value. Never evaluated: both programs spell the same pattern. -/
def negEps : EReal := Ideal.ofBits .f32 0xB727C5AC#32

/-- The input gate: σ of the sum of the two projections' entries. -/
def gateI (xi ri : EReal) : EReal := Ideal.logistic (xi + ri)

/-- A time gate: σ(projection entry + σ(time term)). -/
def gateT (xt k : EReal) : EReal := Ideal.logistic (xt + Ideal.logistic k)

/-- The clamp of the first time gate: ε where the gate exceeds ε, the gate itself elsewhere. -/
def clamp (s : EReal) : EReal := Scalar.select (Ideal.cmp .ogt s negEps) negEps s

/-- The candidate cell value. -/
def cand (xc rc : EReal) : EReal := Ideal.tanh (xc + rc)

/-- The new cell entry. -/
def cellC (xi ri xc rc xt2 k2 c0 : EReal) : EReal :=
  (1 - gateI xi ri) * c0 + gateI xi ri * cand xc rc * gateT xt2 k2

/-- The new hidden entry. -/
def cellH (xi ri xc rc xo ro xt1 k1 ko c0 : EReal) : EReal :=
  Ideal.tanh ((1 - gateI xi ri * gateT xt1 k1) * c0 + gateI xi ri * cand xc rc * clamp (gateT xt1 k1))
    * Ideal.logistic (xo + ro + ko)

/-- Column `off + j` of a matrix with `N` columns: entry `j` of the 512-wide column block that starts at `off`. -/
def col (off N : Nat) (h : off + 512 ≤ N) (j : Fin 512) : Fin N := ⟨off + j.val, by have := j.isLt; omega⟩

@[simp] theorem col_val (off N : Nat) (h : off + 512 ≤ N) (j : Fin 512) : (col off N h j).val = off + j.val := rfl

/-- Column `j` of a matrix with `N` columns: entry `j` of its first 512-wide column block. -/
def col0 (N : Nat) (h : 512 ≤ N) (j : Fin 512) : Fin N := ⟨j.val, by have := j.isLt; omega⟩

@[simp] theorem col0_val (N : Nat) (h : 512 ≤ N) (j : Fin 512) : (col0 N h j).val = j.val := rfl

section Row

variable (K : (⟨2, ![256, 2560]⟩ : Shape).Idx → EReal) (R : (⟨2, ![512, 1536]⟩ : Shape).Idx → EReal)
  (kt : (⟨2, ![1, 1536]⟩ : Shape).Idx → EReal)

/-- Entry `q` of a batch row's input projection: the row times column `q` of `K`. -/
def projX (xr : Fin 256 → EReal) (q : Fin 2560) : EReal := ∑ k : Fin 256, xr k * K (ix2 k q)

/-- Entry `q` of a batch row's recurrent projection: the row times column `q` of `R`. -/
def projH (hr : Fin 512 → EReal) (q : Fin 1536) : EReal := ∑ k : Fin 512, hr k * R (ix2 k q)

/-- Entry `q` of a batch row's time projection: the elapsed time times entry `q` of `kt`. -/
def projT (tr : EReal) (q : Fin 1536) : EReal := tr * kt (ix2 0 q)

/-- Entry `j` of the new cell row. -/
def rowC (xr : Fin 256 → EReal) (tr : EReal) (hr : Fin 512 → EReal) (c0e : EReal) (j : Fin 512) : EReal :=
  cellC (projX K xr (col0 2560 (by omega) j)) (projH R hr (col0 1536 (by omega) j))
    (projX K xr (col 512 2560 (by omega) j)) (projH R hr (col 512 1536 (by omega) j))
    (projX K xr (col 2048 2560 (by omega) j)) (projT kt tr (col 512 1536 (by omega) j)) c0e

/-- Entry `j` of the new hidden row. -/
def rowH (xr : Fin 256 → EReal) (tr : EReal) (hr : Fin 512 → EReal) (c0e : EReal) (j : Fin 512) : EReal :=
  cellH (projX K xr (col0 2560 (by omega) j)) (projH R hr (col0 1536 (by omega) j))
    (projX K xr (col 512 2560 (by omega) j)) (projH R hr (col 512 1536 (by omega) j))
    (projX K xr (col 1024 2560 (by omega) j)) (projH R hr (col 1024 1536 (by omega) j))
    (projX K xr (col 1536 2560 (by omega) j)) (projT kt tr (col0 1536 (by omega) j))
    (projT kt tr (col 1024 1536 (by omega) j)) c0e

end Row

/-- `rowH` of equal data is equal (stated with every datum a variable, so that it can be fed one equation per datum). -/
theorem rowH_congr {K K' : (⟨2, ![256, 2560]⟩ : Shape).Idx → EReal} {R R' : (⟨2, ![512, 1536]⟩ : Shape).Idx → EReal}
    {kt kt' : (⟨2, ![1, 1536]⟩ : Shape).Idx → EReal} {xr xr' : Fin 256 → EReal} {tr tr' : EReal} {hr hr' : Fin 512 → EReal}
    {c c' : EReal} (j : Fin 512) (hK : K = K') (hR : R = R') (hkt : kt = kt') (hx : xr = xr') (ht : tr = tr') (hh : hr = hr')
    (hc : c = c') : rowH K R kt xr tr hr c j = rowH K' R' kt' xr' tr' hr' c' j := by
  subst hK hR hkt hx ht hh hc; rfl

/-- `rowC` of equal data is equal. -/
theorem rowC_congr {K K' : (⟨2, ![256, 2560]⟩ : Shape).Idx → EReal} {R R' : (⟨2, ![512, 1536]⟩ : Shape).Idx → EReal}
    {kt kt' : (⟨2, ![1, 1536]⟩ : Shape).Idx → EReal} {xr xr' : Fin 256 → EReal} {tr tr' : EReal} {hr hr' : Fin 512 → EReal}
    {c c' : EReal} (j : Fin 512) (hK : K = K') (hR : R = R') (hkt : kt = kt') (hx : xr = xr') (ht : tr = tr') (hh : hr = hr')
    (hc : c = c') : rowC K R kt xr tr hr c j = rowC K' R' kt' xr' tr' hr' c' j := by
  subst hK hR hkt hx ht hh hc; rfl

section Batch

variable (x : (⟨2, ![4096, 256]⟩ : Shape).Idx → EReal) (t : (⟨2, ![4096, 1]⟩ : Shape).Idx → EReal)
  (h0 c0 : (⟨2, ![4096, 512]⟩ : Shape).Idx → EReal)
  (K : (⟨2, ![256, 2560]⟩ : Shape).Idx → EReal) (R : (⟨2, ![512, 1536]⟩ : Shape).Idx → EReal)
  (kt : (⟨2, ![1, 1536]⟩ : Shape).Idx → EReal)

/-- The new hidden state of the whole batch, entry by entry. -/
def batchH : (⟨2, ![4096, 512]⟩ : Shape).Idx → EReal := fun i =>
  rowH K R kt (fun k => x (ix2 ⟨(i 0).val, idx2_lt0 i⟩ k)) (t (ix2 ⟨(i 0).val, idx2_lt0 i⟩ 0))
    (fun k => h0 (ix2 ⟨(i 0).val, idx2_lt0 i⟩ k)) (c0 i) ⟨(i 1).val, idx2_lt1 i⟩

/-- The new cell state of the whole batch, entry by entry. -/
def batchC : (⟨2, ![4096, 512]⟩ : Shape).Idx → EReal := fun i =>
  rowC K R kt (fun k => x (ix2 ⟨(i 0).val, idx2_lt0 i⟩ k)) (t (ix2 ⟨(i 0).val, idx2_lt0 i⟩ 0))
    (fun k => h0 (ix2 ⟨(i 0).val, idx2_lt0 i⟩ k)) (c0 i) ⟨(i 1).val, idx2_lt1 i⟩

/-- At row `b`, column `j`, the batch's hidden state is row `b`'s. -/
theorem batchH_ix2 (b : Fin 4096) (j : Fin 512) :
    batchH x t h0 c0 K R kt (ix2 b j)
      = rowH K R kt (fun k => x (ix2 b k)) (t (ix2 b 0)) (fun k => h0 (ix2 b k)) (c0 (ix2 b j)) j := rfl

/-- At row `b`, column `j`, the batch's cell state is row `b`'s. -/
theorem batchC_ix2 (b : Fin 4096) (j : Fin 512) :
    batchC x t h0 c0 K R kt (ix2 b j)
      = rowC K R kt (fun k => x (ix2 b k)) (t (ix2 b 0)) (fun k => h0 (ix2 b k)) (c0 (ix2 b j)) j := rfl

end Batch

end Cert.Cell

end
-- ==== Proof.RefSide.lean ====
/-
  The reference program, stage by stage, computes the time-aware LSTM cell of Proof/Cell.lean.

  Its three projections are `dot_general`s — sums over the contracted axis at the exact instance — cut into 512-wide column
  blocks by slices; its sigmoids are spelt 1 / (1 + exp(−z)); the rest is entry-wise arithmetic. Read at an entry (b, j) through
  the generated stage lemmas, each slice of a projection is the projection's entry at column `offset + j` of batch row `b`, the
  time projection (contraction length one) is a single product, and the result is `Cell.rowH` / `Cell.rowC` of row `b`.
-/
import proofs.«147758_j64089501990951_2_alg».proof.Proof.Gen.ReferenceIdeal.Read
import proofs.«147758_j64089501990951_2_alg».proof.Proof.Cell
import Idealize.ShloMosaic.Lib.ValueIdx
import Idealize.ShloMosaic.PureOps.Ideal.Laws

noncomputable section

namespace Cert.RefCell

open Cert.ReferenceIdeal Cert.ReferenceIdeal.Read Idealize.ShloMosaic Idealize.ShloMosaic.ValueIdx Cert.Cell

section Indices

variable (b : Fin 4096) (j : Fin 512)

/-! Where each slice of a projection reads the projection's operands: batch row `b` at contraction position `k` on the left,
    contraction position `k` at column `offset + j` on the right. -/
theorem lx1 (k : Fin 256) : lidx_main_v0 (idx_main_v1 (ix2 b j)) k = ix2 b k := funext fun a => Fin.ext (by match a with | ⟨0, _⟩ => rfl | ⟨1, _⟩ => rfl)
theorem rx1 (k : Fin 256) : ridx_main_v0 (idx_main_v1 (ix2 b j)) k = ix2 k (col0 2560 (by omega) j) := funext fun a => Fin.ext (by match a with | ⟨0, _⟩ => rfl | ⟨1, _⟩ => rfl)
theorem lx2 (k : Fin 256) : lidx_main_v0 (idx_main_v2 (ix2 b j)) k = ix2 b k := funext fun a => Fin.ext (by match a with | ⟨0, _⟩ => rfl | ⟨1, _⟩ => rfl)
theorem rx2 (k : Fin 256) : ridx_main_v0 (idx_main_v2 (ix2 b j)) k = ix2 k (col 512 2560 (by omega) j) := funext fun a => Fin.ext (by match a with | ⟨0, _⟩ => rfl | ⟨1, _⟩ => rfl)
theorem lx3 (k : Fin 256) : lidx_main_v0 (idx_main_v3 (ix2 b j)) k = ix2 b k := funext fun a => Fin.ext (by match a with | ⟨0, _⟩ => rfl | ⟨1, _⟩ => rfl)
theorem rx3 (k : Fin 256) : ridx_main_v0 (idx_main_v3 (ix2 b j)) k = ix2 k (col 1024 2560 (by omega) j) := funext fun a => Fin.ext (by match a with | ⟨0, _⟩ => rfl | ⟨1, _⟩ => rfl)
theorem lx4 (k : Fin 256) : lidx_main_v0 (idx_main_v4 (ix2 b j)) k = ix2 b k := funext fun a => Fin.ext (by match a with | ⟨0, _⟩ => rfl | ⟨1, _⟩ => rfl)
theorem rx4 (k : Fin 256) : ridx_main_v0 (idx_main_v4 (ix2 b j)) k = ix2 k (col 1536 2560 (by omega) j) := funext fun a => Fin.ext (by match a with | ⟨0, _⟩ => rfl | ⟨1, _⟩ => rfl)
theorem lx5 (k : Fin 256) : lidx_main_v0 (idx_main_v5 (ix2 b j)) k = ix2 b k := funext fun a => Fin.ext (by match a with | ⟨0, _⟩ => rfl | ⟨1, _⟩ => rfl)
theorem rx5 (k : Fin 256) : ridx_main_v0 (idx_main_v5 (ix2 b j)) k = ix2 k (col 2048 2560 (by omega) j) := funext fun a => Fin.ext (by match a with | ⟨0, _⟩ => rfl | ⟨1, _⟩ => rfl)
theorem lx7 (k : Fin 512) : lidx_main_v6 (idx_main_v7 (ix2 b j)) k = ix2 b k := funext fun a => Fin.ext (by match a with | ⟨0, _⟩ => rfl | ⟨1, _⟩ => rfl)
theorem rx7 (k : Fin 512) : ridx_main_v6 (idx_main_v7 (ix2 b j)) k = ix2 k (col0 1536 (by omega) j) := funext fun a => Fin.ext (by match a with | ⟨0, _⟩ => rfl | ⟨1, _⟩ => rfl)
theorem lx8 (k : Fin 512) : lidx_main_v6 (idx_main_v8 (ix2 b j)) k = ix2 b k := funext fun a => Fin.ext (by match a with | ⟨0, _⟩ => rfl | ⟨1, _⟩ => rfl)
theorem rx8 (k : Fin 512) : ridx_main_v6 (idx_main_v8 (ix2 b j)) k = ix2 k (col 512 1536 (by omega) j) := funext fun a => Fin.ext (by match a with | ⟨0, _⟩ => rfl | ⟨1, _⟩ => rfl)
theorem lx9 (k : Fin 512) : lidx_main_v6 (idx_main_v9 (ix2 b j)) k = ix2 b k := funext fun a => Fin.ext (by match a with | ⟨0, _⟩ => rfl | ⟨1, _⟩ => rfl)
theorem rx9 (k : Fin 512) : ridx_main_v6 (idx_main_v9 (ix2 b j)) k = ix2 k (col 1024 1536 (by omega) j) := funext fun a => Fin.ext (by match a with | ⟨0, _⟩ => rfl | ⟨1, _⟩ => rfl)
theorem lx11 : lidx_main_v10 (idx_main_v11 (ix2 b j)) 0 = ix2 b 0 := funext fun a => Fin.ext (by match a with | ⟨0, _⟩ => rfl | ⟨1, _⟩ => rfl)
theorem rx11 : ridx_main_v10 (idx_main_v11 (ix2 b j)) 0 = ix2 0 (col0 1536 (by omega) j) := funext fun a => Fin.ext (by match a with | ⟨0, _⟩ => rfl | ⟨1, _⟩ => rfl)
theorem lx12 : lidx_main_v10 (idx_main_v12 (ix2 b j)) 0 = ix2 b 0 := funext fun a => Fin.ext (by match a with | ⟨0, _⟩ => rfl | ⟨1, _⟩ => rfl)
theorem rx12 : ridx_main_v10 (idx_main_v12 (ix2 b j)) 0 = ix2 0 (col 512 1536 (by omega) j) := funext fun a => Fin.ext (by match a with | ⟨0, _⟩ => rfl | ⟨1, _⟩ => rfl)
theorem lx13 : lidx_main_v10 (idx_main_v13 (ix2 b j)) 0 = ix2 b 0 := funext fun a => Fin.ext (by match a with | ⟨0, _⟩ => rfl | ⟨1, _⟩ => rfl)
theorem rx13 : ridx_main_v10 (idx_main_v13 (ix2 b j)) 0 = ix2 0 (col 1024 1536 (by omega) j) := funext fun a => Fin.ext (by match a with | ⟨0, _⟩ => rfl | ⟨1, _⟩ => rfl)

end Indices

section Stages

variable (x0 : (⟨S4096x256, .f32⟩ : BufTy).Contents (Elt Ideal)) (x1 : (⟨S4096x1, .f32⟩ : BufTy).Contents (Elt Ideal))
  (x2 x3 : (⟨S4096x512, .f32⟩ : BufTy).Contents (Elt Ideal)) (x4 : (⟨S256x2560, .f32⟩ : BufTy).Contents (Elt Ideal))
  (x5 : (⟨S512x1536, .f32⟩ : BufTy).Contents (Elt Ideal)) (x6 : (⟨S1x1536, .f32⟩ : BufTy).Contents (Elt Ideal))

/-- The reference's first result is the batch's new hidden state. -/
theorem hidden_eq : val_main_v75 (F := Ideal) x0 x1 x2 x3 x4 x5 x6 = batchH x0 x1 x2 x3 x4 x5 x6 := by
  funext i
  obtain ⟨b, j, rfl⟩ : ∃ (b : Fin 4096) (j : Fin 512), i = ix2 b j := ⟨i 0, i 1, eq_ix2 i⟩
  rw [batchH_ix2]
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_cst_apply, val_main_v17_apply, val_main_v18_apply, val_main_cst_0_apply, val_main_v19_apply, val_main_v20_apply, val_main_v21_apply, val_main_v22_apply, val_main_cst_1_apply, val_main_v23_apply, val_main_v24_apply, val_main_cst_2_apply, val_main_v25_apply, val_main_v26_apply, val_main_v27_apply, val_main_v28_apply, val_main_v29_apply, val_main_cst_3_apply, val_main_v30_apply, val_main_v31_apply, val_main_cst_4_apply, val_main_v32_apply, val_main_v33_apply, val_main_cst_5_apply, val_main_v34_apply, val_main_v35_apply, val_main_cst_6_apply, val_main_v36_apply, val_main_v37_apply, val_main_v38_apply, val_main_v39_apply, val_main_cst_7_apply, val_main_v40_apply, val_main_v41_apply, val_main_cst_8_apply, val_main_v42_apply, val_main_v43_apply, val_main_v44_apply, val_main_v45_apply, val_main_v46_apply, val_main_cst_9_apply, val_main_v47_apply, val_main_v48_apply, val_main_cst_10_apply, val_main_v49_apply, val_main_v50_apply, val_main_v51_apply, val_main_v52_apply, val_main_v53_apply, val_main_cst_11_apply, val_main_v54_apply, val_main_v55_apply, val_main_v56_apply, val_main_v57_apply, val_main_v58_apply, val_main_v59_apply, val_main_cst_12_apply, val_main_v60_apply, val_main_v61_apply, val_main_v62_apply, val_main_v63_apply, val_main_v64_apply, val_main_v65_apply, val_main_v66_apply, val_main_v67_apply, val_main_v68_apply, val_main_v69_apply, val_main_cst_13_apply, val_main_v70_apply, val_main_v71_apply, val_main_cst_14_apply, val_main_v72_apply, val_main_v73_apply, val_main_v74_apply, val_main_v75_apply]
  simp only [Fin.sum_univ_one, lx1 b j, rx1 b j, lx2 b j, rx2 b j, lx3 b j, rx3 b j, lx4 b j, rx4 b j, lx5 b j, rx5 b j, lx7 b j, rx7 b j, lx8 b j, rx8 b j, lx9 b j, rx9 b j, lx11 b j, rx11 b j, lx12 b j, rx12 b j, lx13 b j, rx13 b j]
  simp only [rowH, cellH, gateI, gateT, clamp, cand, negEps, projX, projH, projT, Ideal.logistic, Ideal.ofBits_def, Ideal.addf_def,
    Ideal.subf_def, Ideal.mulf_def, Ideal.hostDivf_def, Ideal.hostUnary_exp_def, Ideal.hostUnary_tanh_def, Ideal.hostNegf_def,
    Ideal.negf_def, Ideal.scalar_cmpf_def, ofBits_one]
  rfl

/-- The reference's second result is the batch's new cell state. -/
theorem cell_eq : val_main_v65 (F := Ideal) x0 x1 x2 x3 x4 x5 x6 = batchC x0 x1 x2 x3 x4 x5 x6 := by
  funext i
  obtain ⟨b, j, rfl⟩ : ∃ (b : Fin 4096) (j : Fin 512), i = ix2 b j := ⟨i 0, i 1, eq_ix2 i⟩
  rw [batchC_ix2]
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_cst_apply, val_main_v17_apply, val_main_v18_apply, val_main_cst_0_apply, val_main_v19_apply, val_main_v20_apply, val_main_v21_apply, val_main_v22_apply, val_main_cst_1_apply, val_main_v23_apply, val_main_v24_apply, val_main_cst_2_apply, val_main_v25_apply, val_main_v26_apply, val_main_v27_apply, val_main_v28_apply, val_main_v29_apply, val_main_cst_3_apply, val_main_v30_apply, val_main_v31_apply, val_main_cst_4_apply, val_main_v32_apply, val_main_v33_apply, val_main_cst_5_apply, val_main_v34_apply, val_main_v35_apply, val_main_cst_6_apply, val_main_v36_apply, val_main_v37_apply, val_main_v38_apply, val_main_v39_apply, val_main_cst_7_apply, val_main_v40_apply, val_main_v41_apply, val_main_cst_8_apply, val_main_v42_apply, val_main_v43_apply, val_main_v44_apply, val_main_v45_apply, val_main_v46_apply, val_main_cst_9_apply, val_main_v47_apply, val_main_v48_apply, val_main_cst_10_apply, val_main_v49_apply, val_main_v50_apply, val_main_v51_apply, val_main_v52_apply, val_main_v53_apply, val_main_cst_11_apply, val_main_v54_apply, val_main_v55_apply, val_main_v56_apply, val_main_v57_apply, val_main_v58_apply, val_main_v59_apply, val_main_cst_12_apply, val_main_v60_apply, val_main_v61_apply, val_main_v62_apply, val_main_v63_apply, val_main_v64_apply, val_main_v65_apply, val_main_v66_apply, val_main_v67_apply, val_main_v68_apply, val_main_v69_apply, val_main_cst_13_apply, val_main_v70_apply, val_main_v71_apply, val_main_cst_14_apply, val_main_v72_apply, val_main_v73_apply, val_main_v74_apply, val_main_v75_apply]
  simp only [Fin.sum_univ_one, lx1 b j, rx1 b j, lx2 b j, rx2 b j, lx3 b j, rx3 b j, lx4 b j, rx4 b j, lx5 b j, rx5 b j, lx7 b j, rx7 b j, lx8 b j, rx8 b j, lx9 b j, rx9 b j, lx11 b j, rx11 b j, lx12 b j, rx12 b j, lx13 b j, rx13 b j]
  simp only [rowC, cellC, gateI, gateT, clamp, cand, negEps, projX, projH, projT, Ideal.logistic, Ideal.ofBits_def, Ideal.addf_def,
    Ideal.subf_def, Ideal.mulf_def, Ideal.hostDivf_def, Ideal.hostUnary_exp_def, Ideal.hostUnary_tanh_def, Ideal.hostNegf_def,
    Ideal.negf_def, Ideal.scalar_cmpf_def, ofBits_one]

end Stages

end Cert.RefCell

end
-- ==== Proof.Block.lean ====
/-
  What one grid step of the kernel leaves in its two output blocks, entry by entry.

  The step holds 512 batch rows. Its two matrix products (accumulated from zero, the operands' narrowing to a 16-bit format being
  the identity on extended reals) are sums over the contracted axis; the gates read 512-wide column slices of the products; the
  time terms are the block's time column times a slice of the time weights, broadcast against each other. So entry (r, j) of each
  output block is `Cell.rowH` / `Cell.rowC` of row `r` of the step's input blocks.
-/
import proofs.«147758_j64089501990951_2_alg».proof.Proof.Gen.KernelIdeal.Value
import proofs.«147758_j64089501990951_2_alg».proof.Proof.Cell
import Idealize.ShloMosaic.Lib.ValueIdx
import Idealize.ShloMosaic.Lib.Pipeline.Value
import Idealize.ShloMosaic.PureOps.Ideal.Laws

noncomputable section

namespace Cert.KernelCell

open Cert.KernelIdeal Cert.KernelIdeal.Gen Idealize.ShloMosaic Idealize.ShloMosaic.ValueIdx Cert.Cell

/-! ## The two products at an entry -/

theorem xl0 (i : S512x2560.Idx) (q : dot_S512x256_S256x2560_S512x2560_1_0_0_1_n_n.contr.Idx) : (dot_S512x256_S256x2560_S512x2560_1_0_0_1_n_n.lhsIdx i q 0).val = (i 0).val := by
  unfold DotDims.lhsIdx
  rw [dif_neg (show ¬(0 : Fin S512x256.rank) ∈ dot_S512x256_S256x2560_S512x2560_1_0_0_1_n_n.lhsBatch by decide), dif_pos (show (0 : Fin S512x256.rank) ∈ dot_S512x256_S256x2560_S512x2560_1_0_0_1_n_n.lhsNonContracting by decide)]
  rfl
theorem xl1 (i : S512x2560.Idx) (q : dot_S512x256_S256x2560_S512x2560_1_0_0_1_n_n.contr.Idx) : (dot_S512x256_S256x2560_S512x2560_1_0_0_1_n_n.lhsIdx i q 1).val = (q ⟨0, by decide⟩).val :=
  dot_S512x256_S256x2560_S512x2560_1_0_0_1_n_n.lhsIdx_val_of_single rfl i q
theorem xr0 (i : S512x2560.Idx) (q : dot_S512x256_S256x2560_S512x2560_1_0_0_1_n_n.contr.Idx) : (dot_S512x256_S256x2560_S512x2560_1_0_0_1_n_n.rhsIdx i q 0).val = (q ⟨0, by decide⟩).val :=
  dot_S512x256_S256x2560_S512x2560_1_0_0_1_n_n.rhsIdx_val_of_single rfl i q
theorem xr1 (i : S512x2560.Idx) (q : dot_S512x256_S256x2560_S512x2560_1_0_0_1_n_n.contr.Idx) : (dot_S512x256_S256x2560_S512x2560_1_0_0_1_n_n.rhsIdx i q 1).val = (i 1).val := by
  unfold DotDims.rhsIdx
  rw [dif_neg (show ¬(1 : Fin S256x2560.rank) ∈ dot_S512x256_S256x2560_S512x2560_1_0_0_1_n_n.rhsBatch by decide), dif_pos (show (1 : Fin S256x2560.rank) ∈ dot_S512x256_S256x2560_S512x2560_1_0_0_1_n_n.rhsNonContracting by decide)]
  rfl

theorem hl0 (i : S512x1536.Idx) (q : dot_S512x512_S512x1536_S512x1536_1_0_0_1_n_n.contr.Idx) : (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem hl1 (i : S512x1536.Idx) (q : dot_S512x512_S512x1536_S512x1536_1_0_0_1_n_n.contr.Idx) : (dot_S512x512_S512x1536_S512x1536_1_0_0_1_n_n.lhsIdx i q 1).val = (q ⟨0, by decide⟩).val :=
  dot_S512x512_S512x1536_S512x1536_1_0_0_1_n_n.lhsIdx_val_of_single rfl i q
theorem hr0 (i : S512x1536.Idx) (q : dot_S512x512_S512x1536_S512x1536_1_0_0_1_n_n.contr.Idx) : (dot_S512x512_S512x1536_S512x1536_1_0_0_1_n_n.rhsIdx i q 0).val = (q ⟨0, by decide⟩).val :=
  dot_S512x512_S512x1536_S512x1536_1_0_0_1_n_n.rhsIdx_val_of_single rfl i q
theorem hr1 (i : S512x1536.Idx) (q : dot_S512x512_S512x1536_S512x1536_1_0_0_1_n_n.contr.Idx) : (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- An entry of the block's product: row `r` of the left block times column `q` of the right operand (the accumulator starts at zero,
    and the narrowing of the left operand's format is the identity on extended reals). -/
theorem inputProj_apply (A : Vec Ideal S512x256 .f32) (B : Vec Ideal S256x2560 .bf16) (r : Fin 512) (q : Fin 2560) :
    k0_pay4 A B (ix2 r q) = ∑ k : Fin 256, A (ix2 r k) * B (ix2 k q) := by
  unfold k0_pay4
  refine (Ideal.matmul_constant_zero_apply dot_S512x256_S256x2560_S512x2560_1_0_0_1_n_n none _ _ (ix2 r q)).trans ?_
  rw [shapeCast_self]
  rw [← Equiv.sum_comp (contrEquiv1 dot_S512x256_S256x2560_S512x2560_1_0_0_1_n_n 256 rfl rfl).symm]
  refine Finset.sum_congr rfl fun k _ => ?_
  have hk := contrEquiv1_symm_val dot_S512x256_S256x2560_S512x2560_1_0_0_1_n_n 256 rfl rfl k
  have el : dot_S512x256_S256x2560_S512x2560_1_0_0_1_n_n.lhsIdx (ix2 r q) ((contrEquiv1 dot_S512x256_S256x2560_S512x2560_1_0_0_1_n_n 256 rfl rfl).symm k) = ix2 r k := funext fun a => Fin.ext (by
    match a with
    | ⟨0, _⟩ => exact xl0 _ _
    | ⟨1, _⟩ => exact (xl1 _ _).trans hk)
  have er : dot_S512x256_S256x2560_S512x2560_1_0_0_1_n_n.rhsIdx (ix2 r q) ((contrEquiv1 dot_S512x256_S256x2560_S512x2560_1_0_0_1_n_n 256 rfl rfl).symm k) = ix2 k q := funext fun a => Fin.ext (by
    match a with
    | ⟨0, _⟩ => exact (xr0 _ _).trans hk
    | ⟨1, _⟩ => exact xr1 _ _)
  rw [el, er]
  rfl

/-- An entry of the block's product: row `r` of the left block times column `q` of the right operand (the accumulator starts at zero,
    and the narrowing of the left operand's format is the identity on extended reals). -/
theorem recurProj_apply (A : Vec Ideal S512x512 .f32) (B : Vec Ideal S512x1536 .bf16) (r : Fin 512) (q : Fin 1536) :
    k0_pay5 A B (ix2 r q) = ∑ k : Fin 512, A (ix2 r k) * B (ix2 k q) := by
  unfold k0_pay5
  refine (Ideal.matmul_constant_zero_apply dot_S512x512_S512x1536_S512x1536_1_0_0_1_n_n none _ _ (ix2 r q)).trans ?_
  rw [shapeCast_self]
  rw [← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 r q) ((contrEquiv1 dot_S512x512_S512x1536_S512x1536_1_0_0_1_n_n 512 rfl rfl).symm k) = ix2 r k := funext fun a => Fin.ext (by
    match a with
    | ⟨0, _⟩ => exact hl0 _ _
    | ⟨1, _⟩ => exact (hl1 _ _).trans hk)
  have er : dot_S512x512_S512x1536_S512x1536_1_0_0_1_n_n.rhsIdx (ix2 r q) ((contrEquiv1 dot_S512x512_S512x1536_S512x1536_1_0_0_1_n_n 512 rfl rfl).symm k) = ix2 k q := funext fun a => Fin.ext (by
    match a with
    | ⟨0, _⟩ => exact (hr0 _ _).trans hk
    | ⟨1, _⟩ => exact hr1 _ _)
  rw [el, er]
  rfl

/-- The splat of ε reads ε everywhere. -/
theorem eps_apply (y : S512x512.Idx) : k0_pay16 (F := Ideal) y = negEps := rfl

/-! ## Where entry (r, j) of an output block reads the products, the time column, the time weights and the old cell block -/

section Indices

variable (r j : Fin 512)

theorem ix7_0_at : Value.ix7_0 (ix2 r j) = ix2 r (col0 2560 (by omega) j) := funext fun a => Fin.ext (by match a with | ⟨0, _⟩ => (first | rfl | exact Nat.add_comm _ _) | ⟨1, _⟩ => (first | rfl | exact Nat.add_comm _ _))
theorem ix7_1_at : Value.ix7_1 (ix2 r j) = ix2 r (col0 1536 (by omega) j) := funext fun a => Fin.ext (by match a with | ⟨0, _⟩ => (first | rfl | exact Nat.add_comm _ _) | ⟨1, _⟩ => (first | rfl | exact Nat.add_comm _ _))
theorem ix7_2_at : Value.ix7_2 (ix2 r j) = ix2 r (col 1536 2560 (by omega) j) := funext fun a => Fin.ext (by match a with | ⟨0, _⟩ => (first | rfl | exact Nat.add_comm _ _) | ⟨1, _⟩ => (first | rfl | exact Nat.add_comm _ _))
theorem ix7_3_at : Value.ix7_3 (ix2 r j) = ix2 r 0 := funext fun a => Fin.ext (by match a with | ⟨0, _⟩ => (first | rfl | exact Nat.add_comm _ _) | ⟨1, _⟩ => (first | rfl | exact Nat.add_comm _ _))
theorem ix7_4_at : Value.ix7_4 (ix2 r j) = ix2 0 (col0 1536 (by omega) j) := funext fun a => Fin.ext (by match a with | ⟨0, _⟩ => (first | rfl | exact Nat.add_comm _ _) | ⟨1, _⟩ => (first | rfl | exact Nat.add_comm _ _))
theorem ix7_5_at : Value.ix7_5 (ix2 r j) = ix2 r j := funext fun a => Fin.ext (by match a with | ⟨0, _⟩ => (first | rfl | exact Nat.add_comm _ _) | ⟨1, _⟩ => (first | rfl | exact Nat.add_comm _ _))
theorem ix7_6_at : Value.ix7_6 (ix2 r j) = ix2 r (col0 2560 (by omega) j) := funext fun a => Fin.ext (by match a with | ⟨0, _⟩ => (first | rfl | exact Nat.add_comm _ _) | ⟨1, _⟩ => (first | rfl | exact Nat.add_comm _ _))
theorem ix7_7_at : Value.ix7_7 (ix2 r j) = ix2 r (col0 1536 (by omega) j) := funext fun a => Fin.ext (by match a with | ⟨0, _⟩ => (first | rfl | exact Nat.add_comm _ _) | ⟨1, _⟩ => (first | rfl | exact Nat.add_comm _ _))
theorem ix7_8_at : Value.ix7_8 (ix2 r j) = ix2 r (col 512 2560 (by omega) j) := funext fun a => Fin.ext (by match a with | ⟨0, _⟩ => (first | rfl | exact Nat.add_comm _ _) | ⟨1, _⟩ => (first | rfl | exact Nat.add_comm _ _))
theorem ix7_9_at : Value.ix7_9 (ix2 r j) = ix2 r (col 512 1536 (by omega) j) := funext fun a => Fin.ext (by match a with | ⟨0, _⟩ => (first | rfl | exact Nat.add_comm _ _) | ⟨1, _⟩ => (first | rfl | exact Nat.add_comm _ _))
theorem ix7_10_at : Value.ix7_10 (ix2 r j) = ix2 r (col 1536 2560 (by omega) j) := funext fun a => Fin.ext (by match a with | ⟨0, _⟩ => (first | rfl | exact Nat.add_comm _ _) | ⟨1, _⟩ => (first | rfl | exact Nat.add_comm _ _))
theorem ix7_11_at : Value.ix7_11 (ix2 r j) = ix2 r 0 := funext fun a => Fin.ext (by match a with | ⟨0, _⟩ => (first | rfl | exact Nat.add_comm _ _) | ⟨1, _⟩ => (first | rfl | exact Nat.add_comm _ _))
theorem ix7_12_at : Value.ix7_12 (ix2 r j) = ix2 0 (col0 1536 (by omega) j) := funext fun a => Fin.ext (by match a with | ⟨0, _⟩ => (first | rfl | exact Nat.add_comm _ _) | ⟨1, _⟩ => (first | rfl | exact Nat.add_comm _ _))
theorem ix7_13_at : Value.ix7_13 (ix2 r j) = ix2 r j := funext fun a => Fin.ext (by match a with | ⟨0, _⟩ => (first | rfl | exact Nat.add_comm _ _) | ⟨1, _⟩ => (first | rfl | exact Nat.add_comm _ _))
theorem ix7_14_at : Value.ix7_14 (ix2 r j) = ix2 r (col 1536 2560 (by omega) j) := funext fun a => Fin.ext (by match a with | ⟨0, _⟩ => (first | rfl | exact Nat.add_comm _ _) | ⟨1, _⟩ => (first | rfl | exact Nat.add_comm _ _))
theorem ix7_15_at : Value.ix7_15 (ix2 r j) = ix2 r 0 := funext fun a => Fin.ext (by match a with | ⟨0, _⟩ => (first | rfl | exact Nat.add_comm _ _) | ⟨1, _⟩ => (first | rfl | exact Nat.add_comm _ _))
theorem ix7_16_at : Value.ix7_16 (ix2 r j) = ix2 0 (col0 1536 (by omega) j) := funext fun a => Fin.ext (by match a with | ⟨0, _⟩ => (first | rfl | exact Nat.add_comm _ _) | ⟨1, _⟩ => (first | rfl | exact Nat.add_comm _ _))
theorem ix7_17_at : Value.ix7_17 (ix2 r j) = ix2 r (col 1024 2560 (by omega) j) := funext fun a => Fin.ext (by match a with | ⟨0, _⟩ => (first | rfl | exact Nat.add_comm _ _) | ⟨1, _⟩ => (first | rfl | exact Nat.add_comm _ _))
theorem ix7_18_at : Value.ix7_18 (ix2 r j) = ix2 r (col 1024 1536 (by omega) j) := funext fun a => Fin.ext (by match a with | ⟨0, _⟩ => (first | rfl | exact Nat.add_comm _ _) | ⟨1, _⟩ => (first | rfl | exact Nat.add_comm _ _))
theorem ix7_19_at : Value.ix7_19 (ix2 r j) = ix2 r 0 := funext fun a => Fin.ext (by match a with | ⟨0, _⟩ => (first | rfl | exact Nat.add_comm _ _) | ⟨1, _⟩ => (first | rfl | exact Nat.add_comm _ _))
theorem ix7_20_at : Value.ix7_20 (ix2 r j) = ix2 0 (col 1024 1536 (by omega) j) := funext fun a => Fin.ext (by match a with | ⟨0, _⟩ => (first | rfl | exact Nat.add_comm _ _) | ⟨1, _⟩ => (first | rfl | exact Nat.add_comm _ _))
theorem ix8_0_at : Value.ix8_0 (ix2 r j) = ix2 r (col0 2560 (by omega) j) := funext fun a => Fin.ext (by match a with | ⟨0, _⟩ => (first | rfl | exact Nat.add_comm _ _) | ⟨1, _⟩ => (first | rfl | exact Nat.add_comm _ _))
theorem ix8_1_at : Value.ix8_1 (ix2 r j) = ix2 r (col0 1536 (by omega) j) := funext fun a => Fin.ext (by match a with | ⟨0, _⟩ => (first | rfl | exact Nat.add_comm _ _) | ⟨1, _⟩ => (first | rfl | exact Nat.add_comm _ _))
theorem ix8_2_at : Value.ix8_2 (ix2 r j) = ix2 r j := funext fun a => Fin.ext (by match a with | ⟨0, _⟩ => (first | rfl | exact Nat.add_comm _ _) | ⟨1, _⟩ => (first | rfl | exact Nat.add_comm _ _))
theorem ix8_3_at : Value.ix8_3 (ix2 r j) = ix2 r (col0 2560 (by omega) j) := funext fun a => Fin.ext (by match a with | ⟨0, _⟩ => (first | rfl | exact Nat.add_comm _ _) | ⟨1, _⟩ => (first | rfl | exact Nat.add_comm _ _))
theorem ix8_4_at : Value.ix8_4 (ix2 r j) = ix2 r (col0 1536 (by omega) j) := funext fun a => Fin.ext (by match a with | ⟨0, _⟩ => (first | rfl | exact Nat.add_comm _ _) | ⟨1, _⟩ => (first | rfl | exact Nat.add_comm _ _))
theorem ix8_5_at : Value.ix8_5 (ix2 r j) = ix2 r (col 512 2560 (by omega) j) := funext fun a => Fin.ext (by match a with | ⟨0, _⟩ => (first | rfl | exact Nat.add_comm _ _) | ⟨1, _⟩ => (first | rfl | exact Nat.add_comm _ _))
theorem ix8_6_at : Value.ix8_6 (ix2 r j) = ix2 r (col 512 1536 (by omega) j) := funext fun a => Fin.ext (by match a with | ⟨0, _⟩ => (first | rfl | exact Nat.add_comm _ _) | ⟨1, _⟩ => (first | rfl | exact Nat.add_comm _ _))
theorem ix8_7_at : Value.ix8_7 (ix2 r j) = ix2 r (col 2048 2560 (by omega) j) := funext fun a => Fin.ext (by match a with | ⟨0, _⟩ => (first | rfl | exact Nat.add_comm _ _) | ⟨1, _⟩ => (first | rfl | exact Nat.add_comm _ _))
theorem ix8_8_at : Value.ix8_8 (ix2 r j) = ix2 r 0 := funext fun a => Fin.ext (by match a with | ⟨0, _⟩ => (first | rfl | exact Nat.add_comm _ _) | ⟨1, _⟩ => (first | rfl | exact Nat.add_comm _ _))
theorem ix8_9_at : Value.ix8_9 (ix2 r j) = ix2 0 (col 512 1536 (by omega) j) := funext fun a => Fin.ext (by match a with | ⟨0, _⟩ => (first | rfl | exact Nat.add_comm _ _) | ⟨1, _⟩ => (first | rfl | exact Nat.add_comm _ _))

end Indices

/-! ## The output blocks at an entry -/

section Blocks

variable (X : Vec Ideal S512x256 .f32) (K : Vec Ideal S256x2560 .bf16) (H : Vec Ideal S512x512 .f32) (R : Vec Ideal S512x1536 .bf16)
  (T : Vec Ideal S512x1 .f32) (KT : Vec Ideal S1x1536 .f32) (C : Vec Ideal S512x512 .f32)

/-- Entry (r, j) of the hidden-state block is the cell's hidden entry `j` for row `r` of the step's blocks. -/
theorem hiddenBlock_apply (r j : Fin 512) :
    Value.E7 X K H R T KT C (ix2 r j)
      = rowH K R KT (fun k => X (ix2 r k)) (T (ix2 r 0)) (fun k => H (ix2 r k)) (C (ix2 r j)) j := by
  simp only [Value.E7, ix7_0_at r j, ix7_1_at r j, ix7_2_at r j, ix7_3_at r j, ix7_4_at r j, ix7_5_at r j, ix7_6_at r j, ix7_7_at r j, ix7_8_at r j, ix7_9_at r j, ix7_10_at r j, ix7_11_at r j, ix7_12_at r j, ix7_13_at r j, ix7_14_at r j, ix7_15_at r j, ix7_16_at r j, ix7_17_at r j, ix7_18_at r j, ix7_19_at r j, ix7_20_at r j, inputProj_apply, recurProj_apply, eps_apply]
  simp only [rowH, cellH, gateI, gateT, clamp, cand, projX, projH, projT, negEps, Ideal.logistic_def, Ideal.tanh_def, Ideal.addf_def, Ideal.subf_def, Ideal.mulf_def, Ideal.scalar_cmpf_def, Ideal.ofBits_def, ofBits_one]
  rfl

/-- Entry (r, j) of the cell-state block is the cell's cell entry `j` for row `r` of the step's blocks. -/
theorem cellBlock_apply (r j : Fin 512) :
    Value.E8 X K H R C T KT (ix2 r j)
      = rowC K R KT (fun k => X (ix2 r k)) (T (ix2 r 0)) (fun k => H (ix2 r k)) (C (ix2 r j)) j := by
  simp only [Value.E8, ix8_0_at r j, ix8_1_at r j, ix8_2_at r j, ix8_3_at r j, ix8_4_at r j, ix8_5_at r j, ix8_6_at r j, ix8_7_at r j, ix8_8_at r j, ix8_9_at r j, inputProj_apply, recurProj_apply]
  simp only [rowC, cellC, gateI, gateT, cand, projX, projH, projT, Ideal.logistic_def, Ideal.tanh_def, Ideal.addf_def, Ideal.subf_def, Ideal.mulf_def, Ideal.scalar_cmpf_def, Ideal.ofBits_def, ofBits_one]

end Blocks

/-! ## The frame's name for what a step leaves is that block -/

theorem zeroOffsets : (![0, 0] : Fin 2 → Nat) = fun _ => 0 := funext fun a => by fin_cases a <;> rfl

section Outs

variable (x0 : Vec Ideal S512x256 .f32) (x1 : Vec Ideal S512x1 .f32) (x2 x3 : Vec Ideal S512x512 .f32)
  (x4 : Vec Ideal S256x2560 .bf16) (x5 : Vec Ideal S512x1536 .bf16) (x6 : Vec Ideal S1x1536 .f32)

/-- The hidden-state window's staging buffer after the body, from the seven input blocks loaded whole. -/
theorem hiddenOut_apply (y : S512x512.Idx) : out0_7 x0 x1 x2 x3 x4 x5 x6 y = Value.E7 x0 x4 x2 x5 x1 x6 x3 y := by
  unfold out0_7
  simp only [View.ld_unit_zero (S := S512x256) zeroOffsets, View.ld_unit_zero (S := S256x2560) zeroOffsets,
    View.ld_unit_zero (S := S512x512) zeroOffsets, View.ld_unit_zero (S := S512x1536) zeroOffsets,
    View.ld_unit_zero (S := S512x1) zeroOffsets, View.ld_unit_zero (S := S1x1536) zeroOffsets]
  exact Value.canon7_eq x0 x4 x2 x5 x1 x6 x3 y

/-- The cell-state window's staging buffer after the body, from the seven input blocks loaded whole. -/
theorem cellOut_apply (y : S512x512.Idx) : out0_8 x0 x1 x2 x3 x4 x5 x6 y = Value.E8 x0 x4 x2 x5 x3 x1 x6 y := by
  unfold out0_8
  simp only [View.ld_unit_zero (S := S512x256) zeroOffsets, View.ld_unit_zero (S := S256x2560) zeroOffsets,
    View.ld_unit_zero (S := S512x512) zeroOffsets, View.ld_unit_zero (S := S512x1536) zeroOffsets,
    View.ld_unit_zero (S := S512x1) zeroOffsets, View.ld_unit_zero (S := S1x1536) zeroOffsets]
  exact Value.canon8_eq x0 x4 x2 x5 x3 x1 x6 y

end Outs

end Cert.KernelCell

end
-- ==== Proof.Windows.lean ====
/-
  The blocks a grid step finds in its windows, as entries of the argument arrays.

  The grid has 8 steps. At step `t` the four batch windows (input rows, elapsed time, previous hidden and cell state) hold rows
  512·t … 512·t + 511 of their arrays, and the three weight windows hold their whole arrays; the two matrix weights reach the kernel
  through a change of float format done before the launch, which is the identity on extended reals.
-/
import proofs.«147758_j64089501990951_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

namespace Cert.KernelWindows

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The printed block-index maps, decided over the 8 grid steps: a batch window's block index is (step, 0), a weight window's (0, 0). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Batch row `512·t + r`: row `r` of grid step `t`'s block. -/
def stepRow (t : Fin cfg0.N) (r : Fin 512) : Fin 4096 :=
  ⟨t.val * 512 + r.val, by have hN : cfg0.N = 8 := N_0; have := t.isLt; have := r.isLt; omega⟩

@[simp] theorem stepRow_val (t : Fin cfg0.N) (r : Fin 512) : (stepRow t r).val = t.val * 512 + r.val := rfl

/-- The two matrix weights as the region finds them: the launch contents, their float format changed (the identity here). -/
theorem V_inputWeights (c : Dev nD) :
    (V m c main_v0 : S256x2560.Idx → Elt Ideal .bf16) = truncf (F := Ideal) (s := S256x2560) (φ := .f32) .bf16 ((m ((c : Thread nD τ).loc main_arg4)) : S256x2560.Idx → Elt Ideal .f32) bitsLt_bf16_f32 := by
  dsimp only [Gen.V, Gen.hostOps0]; after_results

theorem V_recurWeights (c : Dev nD) :
    (V m c main_v1 : S512x1536.Idx → Elt Ideal .bf16) = truncf (F := Ideal) (s := S512x1536) (φ := .f32) .bf16 ((m ((c : Thread nD τ).loc main_arg5)) : S512x1536.Idx → Elt Ideal .f32) bitsLt_bf16_f32 := by
  dsimp only [Gen.V, Gen.hostOps0]; after_results

section Reads

variable (c : Dev nD) (t : Fin cfg0.N)

/-- The input-row window at step `t`: rows 512·t … 512·t + 511 of the first argument. -/
theorem inputBlock_apply (r : Fin 512) (k : Fin 256) :
    (iblk m c 0 t : Vec Ideal S512x256 .f32) (ix2 r k) = ((m ((c : Thread nD τ).loc main_arg0)) : S4096x256.Idx → Elt Ideal .f32) (ix2 (stepRow t r) k) := by
  obtain ⟨⟨e0, e1⟩, -, -, -, -, -, -, -, -⟩ := index_facts t
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [e0]; omega
  | ⟨1, _⟩ => show win0_0.index t 1 * 256 + 1 * k.val = k.val; rw [e1]; omega

/-- The elapsed-time window at step `t`: the same rows of the time column. -/
theorem timeBlock_apply (r : Fin 512) (z : Fin 1) :
    (iblk m c 1 t : Vec Ideal S512x1 .f32) (ix2 r z) = ((m ((c : Thread nD τ).loc main_arg1)) : S4096x1.Idx → Elt Ideal .f32) (ix2 (stepRow t r) z) := by
  obtain ⟨-, ⟨e0, e1⟩, -, -, -, -, -, -, -⟩ := index_facts t
  unfold iblk
  rw [View.read_apply]
  show V m c main_arg1 _ = _
  rw [V_main_arg1]
  congr 1
  funext a
  apply Fin.ext
  match a with
  | ⟨0, _⟩ => show win0_1.index t 0 * 512 + 1 * r.val = t.val * 512 + r.val; rw [e0]; omega
  | ⟨1, _⟩ => show win0_1.index t 1 * 1 + 1 * z.val = z.val; rw [e1]; omega

/-- The previous-hidden-state window at step `t`: the same rows of the third argument. -/
theorem hiddenBlock_apply (r : Fin 512) (k : Fin 512) :
    (iblk m c 2 t : Vec Ideal S512x512 .f32) (ix2 r k) = ((m ((c : Thread nD τ).loc main_arg2)) : S4096x512.Idx → Elt Ideal .f32) (ix2 (stepRow t r) k) := by
  obtain ⟨-, -, ⟨e0, e1⟩, -, -, -, -, -, -⟩ := index_facts t
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [e0]; omega
  | ⟨1, _⟩ => show win0_2.index t 1 * 512 + 1 * k.val = k.val; rw [e1]; omega

/-- The previous-cell-state window at step `t`: the same rows of the fourth argument. -/
theorem cellBlock_apply (r : Fin 512) (k : Fin 512) :
    (iblk m c 3 t : Vec Ideal S512x512 .f32) (ix2 r k) = ((m ((c : Thread nD τ).loc main_arg3)) : S4096x512.Idx → Elt Ideal .f32) (ix2 (stepRow t r) k) := by
  obtain ⟨-, -, -, ⟨e0, e1⟩, -, -, -, -, -⟩ := index_facts t
  unfold iblk
  rw [View.read_apply]
  show V m c main_arg3 _ = _
  rw [V_main_arg3]
  congr 1
  funext a
  apply Fin.ext
  match a with
  | ⟨0, _⟩ => show win0_3.index t 0 * 512 + 1 * r.val = t.val * 512 + r.val; rw [e0]; omega
  | ⟨1, _⟩ => show win0_3.index t 1 * 512 + 1 * k.val = k.val; rw [e1]; omega

/-- The time-weight window holds the whole seventh argument at every step. -/
theorem timeWeights_apply (z : Fin 1) (q : Fin 1536) :
    (iblk m c 6 t : Vec Ideal S1x1536 .f32) (ix2 z q) = ((m ((c : Thread nD τ).loc main_arg6)) : S1x1536.Idx → Elt Ideal .f32) (ix2 z q) := by
  obtain ⟨-, -, -, -, -, -, ⟨e0, e1⟩, -, -⟩ := index_facts t
  unfold iblk
  rw [View.read_apply]
  show V m c main_arg6 _ = _
  rw [V_main_arg6]
  congr 1
  funext a
  apply Fin.ext
  match a with
  | ⟨0, _⟩ => show win0_6.index t 0 * 1 + 1 * z.val = z.val; rw [e0]; omega
  | ⟨1, _⟩ => show win0_6.index t 1 * 1536 + 1 * q.val = q.val; rw [e1]; omega

/-- The input-weight window holds the whole fifth argument at every step. -/
theorem inputWeights_apply (k : Fin 256) (q : Fin 2560) :
    (iblk m c 4 t : Vec Ideal S256x2560 .bf16) (ix2 k q) = ((m ((c : Thread nD τ).loc main_arg4)) : S256x2560.Idx → Elt Ideal .f32) (ix2 k q) := by
  obtain ⟨-, -, -, -, ⟨e0, e1⟩, -, -, -, -⟩ := index_facts t
  unfold iblk
  rw [View.read_apply]
  show (V m c main_v0 : S256x2560.Idx → Elt Ideal .bf16) _ = _
  rw [V_inputWeights]
  show ((m ((c : Thread nD τ).loc main_arg4)) : S256x2560.Idx → Elt Ideal .f32) _ = _
  congr 1
  funext a
  apply Fin.ext
  match a with
  | ⟨0, _⟩ => show win0_4.index t 0 * 256 + 1 * k.val = k.val; rw [e0]; omega
  | ⟨1, _⟩ => show win0_4.index t 1 * 2560 + 1 * q.val = q.val; rw [e1]; omega

/-- The recurrent-weight window holds the whole sixth argument at every step. -/
theorem recurWeights_apply (k : Fin 512) (q : Fin 1536) :
    (iblk m c 5 t : Vec Ideal S512x1536 .bf16) (ix2 k q) = ((m ((c : Thread nD τ).loc main_arg5)) : S512x1536.Idx → Elt Ideal .f32) (ix2 k q) := by
  obtain ⟨-, -, -, -, -, ⟨e0, e1⟩, -, -, -⟩ := index_facts t
  unfold iblk
  rw [View.read_apply]
  show (V m c main_v1 : S512x1536.Idx → Elt Ideal .bf16) _ = _
  rw [V_recurWeights]
  show ((m ((c : Thread nD τ).loc main_arg5)) : S512x1536.Idx → Elt Ideal .f32) _ = _
  congr 1
  funext a
  apply Fin.ext
  match a with
  | ⟨0, _⟩ => show win0_5.index t 0 * 512 + 1 * k.val = k.val; rw [e0]; omega
  | ⟨1, _⟩ => show win0_5.index t 1 * 1536 + 1 * q.val = q.val; rw [e1]; omega

/-! Where entry (r, j) of an output block lands in its array: row 512·t + r, column j. -/

theorem hiddenOut_emb (r j : Fin 512) :
    ((cfg0.win 7).blk t).view.emb (ix2 r j : S512x512.Idx) = (ix2 (stepRow t r) j : S4096x512.Idx) := by
  obtain ⟨-, -, -, -, -, -, -, ⟨e0, e1⟩, -⟩ := index_facts t
  funext a
  apply Fin.ext
  match a with
  | ⟨0, _⟩ => show win0_7.index t 0 * 512 + 1 * r.val = t.val * 512 + r.val; rw [e0]; omega
  | ⟨1, _⟩ => show win0_7.index t 1 * 512 + 1 * j.val = j.val; rw [e1]; omega

theorem cellOut_emb (r j : Fin 512) :
    ((cfg0.win 8).blk t).view.emb (ix2 r j : S512x512.Idx) = (ix2 (stepRow t r) j : S4096x512.Idx) := by
  obtain ⟨-, -, -, -, -, -, -, -, ⟨e0, e1⟩⟩ := index_facts t
  funext a
  apply Fin.ext
  match a with
  | ⟨0, _⟩ => show win0_8.index t 0 * 512 + 1 * r.val = t.val * 512 + r.val; rw [e0]; omega
  | ⟨1, _⟩ => show win0_8.index t 1 * 512 + 1 * j.val = j.val; rw [e1]; omega

end Reads

end Cert.KernelWindows

end
-- ==== Proof.KernelValue.lean ====
/-
  The kernel's two result arrays after the run are the cell's new hidden and cell state of the whole batch.

  Grid step `t` writes back, into rows 512·t … 512·t + 511 of each result array, the block Proof/Block.lean computes from the blocks
  Proof/Windows.lean reads — which is that range of rows of `Cell.batchH` / `Cell.batchC` of the argument arrays, because the cell
  is row-wise. The eight steps' row ranges cover the 4096 rows (row `b` is step `b / 512`'s), so each array ends holding the whole
  function.
-/
import proofs.«147758_j64089501990951_2_alg».proof.Proof.Gen.KernelIdeal.Value
import proofs.«147758_j64089501990951_2_alg».proof.Proof.Cell
import proofs.«147758_j64089501990951_2_alg».proof.Proof.Block
import proofs.«147758_j64089501990951_2_alg».proof.Proof.Windows
import Idealize.ShloMosaic.Lib.ValueIdx
import Idealize.ShloMosaic.Lib.Pipeline.Value

noncomputable section

namespace Cert.KernelValue

open Cert.KernelIdeal Cert.KernelIdeal.Gen Idealize.ShloMosaic Idealize.ShloMosaic.TcCoe Idealize.ShloMosaic.ValueIdx Idealize.SL.Sem
open Idealize.ShloMosaic.Pipeline (Dat)
open Cert.Cell Cert.KernelCell Cert.KernelWindows

variable (m : (ℓ : Loc nD τ sig) → Buf (Elt Ideal) ℓ) (ρ : Dev nD → PrngReg)

/-! ## What a step writes back -/

/-- What step `t` writes back to the first result array is block `t` of the batch's new hidden state. -/
theorem flushedHidden_eq (c : Dev nD) (t : Fin cfg0.N) :
    (dats m 0 c).flushed 7 t = ((cfg0.win 7).blk t).view.read (Elt Ideal) (batchH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  funext y
  obtain ⟨r, j, rfl⟩ : ∃ (r j : Fin 512), y = ix2 r j := ⟨y 0, y 1, eq_ix2 y⟩
  show out0_7 (iblk m c 0 t) (iblk m c 1 t) (iblk m c 2 t) (iblk m c 3 t) (iblk m c 4 t) (iblk m c 5 t) (iblk m c 6 t) (ix2 r j)
    = batchH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 r j : S512x512.Idx))
  rw [hiddenOut_emb t r j, batchH_ix2]
  refine (hiddenOut_apply (iblk m c 0 t) (iblk m c 1 t) (iblk m c 2 t) (iblk m c 3 t) (iblk m c 4 t) (iblk m c 5 t) (iblk m c 6 t) (ix2 r j)).trans ?_
  refine (Cert.KernelCell.hiddenBlock_apply (iblk m c 0 t) (iblk m c 4 t) (iblk m c 2 t) (iblk m c 5 t) (iblk m c 1 t) (iblk m c 6 t) (iblk m c 3 t) r j).trans ?_
  exact rowH_congr j
    (funext fun y => by obtain ⟨k, q, rfl⟩ : ∃ (k : Fin 256) (q : Fin 2560), y = ix2 k q := ⟨y 0, y 1, eq_ix2 y⟩; exact inputWeights_apply m c t k q)
    (funext fun y => by obtain ⟨k, q, rfl⟩ : ∃ (k : Fin 512) (q : Fin 1536), y = ix2 k q := ⟨y 0, y 1, eq_ix2 y⟩; exact recurWeights_apply m c t k q)
    (funext fun y => by obtain ⟨z, q, rfl⟩ : ∃ (z : Fin 1) (q : Fin 1536), y = ix2 z q := ⟨y 0, y 1, eq_ix2 y⟩; exact timeWeights_apply m c t z q)
    (funext fun k => inputBlock_apply m c t r k)
    (timeBlock_apply m c t r 0)
    (funext fun k => hiddenBlock_apply m c t r k)
    (cellBlock_apply m c t r j)

/-- What step `t` writes back to the second result array is block `t` of the batch's new cell state. -/
theorem flushedCell_eq (c : Dev nD) (t : Fin cfg0.N) :
    (dats m 0 c).flushed 8 t = ((cfg0.win 8).blk t).view.read (Elt Ideal) (batchC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  funext y
  obtain ⟨r, j, rfl⟩ : ∃ (r j : Fin 512), y = ix2 r j := ⟨y 0, y 1, eq_ix2 y⟩
  show out0_8 (iblk m c 0 t) (iblk m c 1 t) (iblk m c 2 t) (iblk m c 3 t) (iblk m c 4 t) (iblk m c 5 t) (iblk m c 6 t) (ix2 r j)
    = batchC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb (ix2 r j : S512x512.Idx))
  rw [cellOut_emb t r j, batchC_ix2]
  refine (cellOut_apply (iblk m c 0 t) (iblk m c 1 t) (iblk m c 2 t) (iblk m c 3 t) (iblk m c 4 t) (iblk m c 5 t) (iblk m c 6 t) (ix2 r j)).trans ?_
  refine (Cert.KernelCell.cellBlock_apply (iblk m c 0 t) (iblk m c 4 t) (iblk m c 2 t) (iblk m c 5 t) (iblk m c 1 t) (iblk m c 6 t) (iblk m c 3 t) r j).trans ?_
  exact rowC_congr j
    (funext fun y => by obtain ⟨k, q, rfl⟩ : ∃ (k : Fin 256) (q : Fin 2560), y = ix2 k q := ⟨y 0, y 1, eq_ix2 y⟩; exact inputWeights_apply m c t k q)
    (funext fun y => by obtain ⟨k, q, rfl⟩ : ∃ (k : Fin 512) (q : Fin 1536), y = ix2 k q := ⟨y 0, y 1, eq_ix2 y⟩; exact recurWeights_apply m c t k q)
    (funext fun y => by obtain ⟨z, q, rfl⟩ : ∃ (z : Fin 1) (q : Fin 1536), y = ix2 z q := ⟨y 0, y 1, eq_ix2 y⟩; exact timeWeights_apply m c t z q)
    (funext fun k => inputBlock_apply m c t r k)
    (timeBlock_apply m c t r 0)
    (funext fun k => hiddenBlock_apply m c t r k)
    (cellBlock_apply m c t r j)

/-! ## The steps' blocks cover the result arrays -/

/-- An index of a result array is in step `t`'s block iff each coordinate is in the block's range on its axis. -/
theorem mem_hiddenBlk (t : Fin cfg0.N) (i : S4096x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v2_0).slice (win0_7.rect t)).set ↔ _
  rw [View.set_slice_whole, Rect.mem_set_unit]
  exact Iff.rfl

theorem mem_cellBlk (t : Fin cfg0.N) (i : S4096x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v2_1).slice (win0_8.rect t)).set ↔ _
  rw [View.set_slice_whole, Rect.mem_set_unit]
  exact Iff.rfl

/-- Row `b` of a result array is written back by step `b / 512`. -/
theorem hidden_cover (i : S4096x512.Idx) :
    ∃ t : Fin cfg0.N, (cfg0.win 7).flush t = true ∧ i ∈ ((cfg0.win 7).blk t).view.set := by
  have hN : cfg0.N = 8 := N_0
  have hi0 : (i 0).val < 4096 := (i 0).isLt
  have hi1 : (i 1).val < 512 := (i 1).isLt
  obtain ⟨-, -, -, -, -, -, -, ⟨e0, e1⟩, -⟩ := index_facts ⟨(i 0).val / 512, by omega⟩
  refine ⟨⟨(i 0).val / 512, by omega⟩, flush0_7 _, ?_⟩
  rw [mem_hiddenBlk]
  intro a
  match a with
  | ⟨0, _⟩ =>
    show win0_7.index ⟨(i 0).val / 512, _⟩ 0 * 512 ≤ (i 0).val ∧ (i 0).val < win0_7.index ⟨(i 0).val / 512, _⟩ 0 * 512 + 512
    rw [e0]; show (i 0).val / 512 * 512 ≤ (i 0).val ∧ (i 0).val < (i 0).val / 512 * 512 + 512; omega
  | ⟨1, _⟩ =>
    show win0_7.index ⟨(i 0).val / 512, _⟩ 1 * 512 ≤ (i 1).val ∧ (i 1).val < win0_7.index ⟨(i 0).val / 512, _⟩ 1 * 512 + 512
    rw [e1]; omega

theorem cell_cover (i : S4096x512.Idx) :
    ∃ t : Fin cfg0.N, (cfg0.win 8).flush t = true ∧ i ∈ ((cfg0.win 8).blk t).view.set := by
  have hN : cfg0.N = 8 := N_0
  have hi0 : (i 0).val < 4096 := (i 0).isLt
  have hi1 : (i 1).val < 512 := (i 1).isLt
  obtain ⟨-, -, -, -, -, -, -, -, ⟨e0, e1⟩⟩ := index_facts ⟨(i 0).val / 512, by omega⟩
  refine ⟨⟨(i 0).val / 512, by omega⟩, flush0_8 _, ?_⟩
  rw [mem_cellBlk]
  intro a
  match a with
  | ⟨0, _⟩ =>
    show win0_8.index ⟨(i 0).val / 512, _⟩ 0 * 512 ≤ (i 0).val ∧ (i 0).val < win0_8.index ⟨(i 0).val / 512, _⟩ 0 * 512 + 512
    rw [e0]; show (i 0).val / 512 * 512 ≤ (i 0).val ∧ (i 0).val < (i 0).val / 512 * 512 + 512; omega
  | ⟨1, _⟩ =>
    show win0_8.index ⟨(i 0).val / 512, _⟩ 1 * 512 ≤ (i 1).val ∧ (i 1).val < win0_8.index ⟨(i 0).val / 512, _⟩ 1 * 512 + 512
    rw [e1]; omega

/-! ## The result arrays, and the run -/

/-- After the last step the first result array holds the batch's new hidden state. -/
theorem finalHidden (c : Dev nD) : (dats m 0 c).arrAt 7 cfg0.N = batchH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (batchH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushedHidden_eq m c t) hidden_cover

/-- After the last step the second result array holds the batch's new cell state. -/
theorem finalCell (c : Dev nD) : (dats m 0 c).arrAt 8 cfg0.N = batchC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (batchC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushedCell_eq m c t) cell_cover

/-- Every weakly fair execution of the kernel's program ends with its results at the cell's two outputs of the arguments, the
    arguments unchanged. -/
theorem run : θ_run defs (onTc (τ := τ) (main (F := Ideal))) ⟨m, fun _ => 0, ρ⟩ fun r => ∀ c : Dev nD,
      r.2.mem ((c : Thread nD τ).loc main_v2_0) = batchH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v2_1) = batchC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (finalHidden m c), (h c).2.1.trans (finalCell m c), (h c).2.2⟩)
    (Value.run_blocks m ρ)

end Cert.KernelValue

end
-- ==== Proof.lean ====
/-
  A fused time-aware LSTM cell step on 4096 batch rows: a kernel that walks the batch in 8 blocks of 512 rows, against the
  whole-batch reference program, equal over the extended reals.

  Both compute, for every batch row, the cell of Proof/Cell.lean: three projections (input rows times a 256 × 2560 matrix,
  previous hidden rows times a 512 × 1536 matrix, elapsed time times a 1 × 1536 row), cut into 512-wide gate slices, then sigmoids,
  tanh, one comparison with a select, and entry-wise arithmetic. The kernel narrows the matrix operands to a 16-bit float format
  before multiplying and uses a fused sigmoid; the reference multiplies in 32 bits and spells the sigmoid 1 / (1 + exp(−z)). Over the
  extended reals a change of float format is the identity, a matrix product is the sum over the contracted axis on either side,
  a contraction of length one is a single product, and the fused sigmoid IS that quotient — so the two programs are the same
  function entry by entry, with no appeal to finiteness of the inputs: no law beyond these identifications is used.

  Proof/RefSide.lean reads the reference stage by stage into `Cell.batchH` / `Cell.batchC`; Proof/Block.lean reads one grid step's
  output blocks, Proof/Windows.lean its input blocks, and Proof/KernelValue.lean assembles the kernel's result arrays from the
  eight steps. The kernel's idealization rewrote no operation, so the "preserves" claim is trivial; the three termination-and-frame
  claims are the generated frame runs.
-/
import proofs.«147758_j64089501990951_2_alg».proof.Defs
import proofs.«147758_j64089501990951_2_alg».proof.Proof.Gen.Kernel
import proofs.«147758_j64089501990951_2_alg».proof.Proof.Gen.Kernel.Skeleton
import proofs.«147758_j64089501990951_2_alg».proof.Proof.Gen.Kernel.Launch
import proofs.«147758_j64089501990951_2_alg».proof.Proof.Gen.Kernel.Points
import proofs.«147758_j64089501990951_2_alg».proof.Proof.Gen.Kernel.Frame
import proofs.«147758_j64089501990951_2_alg».proof.Proof.Gen.KernelIdeal
import proofs.«147758_j64089501990951_2_alg».proof.Proof.Gen.KernelIdeal.Skeleton
import proofs.«147758_j64089501990951_2_alg».proof.Proof.Gen.KernelIdeal.Launch
import proofs.«147758_j64089501990951_2_alg».proof.Proof.Gen.KernelIdeal.Points
import proofs.«147758_j64089501990951_2_alg».proof.Proof.Gen.KernelIdeal.Frame
import proofs.«147758_j64089501990951_2_alg».proof.Proof.Gen.ReferenceIdeal
import proofs.«147758_j64089501990951_2_alg».proof.Proof.Gen.Pre_finite_inputs
import proofs.«147758_j64089501990951_2_alg».proof.Proof.Gen.KernelIdeal.Value
import proofs.«147758_j64089501990951_2_alg».proof.Proof.Gen.ReferenceIdeal.Run
import proofs.«147758_j64089501990951_2_alg».proof.Proof.Gen.ReferenceIdeal.Read
import proofs.«147758_j64089501990951_2_alg».proof.Proof.Cell
import proofs.«147758_j64089501990951_2_alg».proof.Proof.RefSide
import proofs.«147758_j64089501990951_2_alg».proof.Proof.KernelValue
import Idealize.ShloMosaic.Adequacy
import Idealize.ShloMosaic.Init

noncomputable section

namespace Cert.Proof

open Idealize.ShloMosaic Idealize.SL.Sem

/-- The kernel as compiled terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the seven arguments, both programs end with the cell's new hidden state and new cell state of
    the arguments. -/
theorem algebraic : Cert.algebraic_KernelIdeal_ReferenceIdeal := by
  intro m ρ m' ρ' _ hagree
  refine ⟨fun c => Cert.Cell.batchH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Cell.batchC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v75_eq, Cert.RefCell.hidden_eq, (hagree c).1, (hagree c).2.1, (hagree c).2.2.1,
      (hagree c).2.2.2.1, (hagree c).2.2.2.2.1, (hagree c).2.2.2.2.2.1, (hagree c).2.2.2.2.2.2]
  · refine (Cert.ReferenceIdeal.Read.val_main_v65_eq _ _ _ _ _ _ _).trans ?_
    rw [Cert.RefCell.cell_eq, (hagree c).1, (hagree c).2.1, (hagree c).2.2.1,
      (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
